-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S50000x64 : Shape := ⟨2, ![50000, 64]⟩
abbrev S128x128 : Shape := ⟨2, ![128, 128]⟩
abbrev S128 : Shape := ⟨1, ![128]⟩
abbrev S128x320 : Shape := ⟨2, ![128, 320]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x320 : S_.BroadcastsInDim S128x320 (![] : Fin 0 → Fin S128x320.rank)
  reducesTo_S128x320_S_d0_1 : S128x320.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x320 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x320 .f32 := Host.absf main_arg7
  let main_cst_10 : FVec F S_ .f32 := constant S_ .f32 0x7F800000#32
  let main_v30 : FVec F S128x320 .f32 := broadcastInDim S128x320 ![] bcast_S_S128x320 main_cst_10
  let main_v31 : IVec S128x320 1 := cmpf .olt main_v29 main_v30
  let main_c_11 : IVec S_ 1 := constantI S_ 1 1#1
  let main_v32 : IVec S_ 1 := (fun x v => Host.reduce IntOp.andi x v reducesTo_S128x320_S_d0_1 h_S_) main_v31 main_c_11
  let main_v33 : IVec S_ 1 := andi main_v28 main_v32
  fn_part2 (F := F) main_arg8 main_v33

def fn {F : FTy → Type} [FloatOps F] (main_arg0 : FVec F S1000000x128 .f32) (main_arg1 : IVec S1000000 32) (main_arg2 : FVec F S50000x64 .f32) (main_arg3 : FVec F S128x128 .f32) (main_arg4 : FVec F S128 .f32) (main_arg5 : FVec F S128x128 .f32) (main_arg6 : FVec F S128 .f32) (main_arg7 : FVec F S128x320 .f32) (main_arg8 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S50000x64 .f32 := Host.absf main_arg2
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S1000000x128 : Shape := ⟨2, ![1000000, 128]⟩
abbrev S1000000 : Shape := ⟨1, ![1000000]⟩
abbrev S50000x64 : Shape := ⟨2, ![50000, 64]⟩
abbrev S128x128 : Shape := ⟨2, ![128, 128]⟩
abbrev S128 : Shape := ⟨1, ![128]⟩
abbrev S128x320 : Shape := ⟨2, ![128, 320]⟩
abbrev S1x128 : Shape := ⟨2, ![1, 128]⟩
abbrev S8000x128 : Shape := ⟨2, ![8000, 128]⟩
abbrev S_ : Shape := ⟨0, ![]⟩
abbrev S50000x128 : Shape := ⟨2, ![50000, 128]⟩
abbrev S1000000x1 : Shape := ⟨2, ![1000000, 1]⟩
abbrev S50000 : Shape := ⟨1, ![50000]⟩
abbrev S50000x1 : Shape := ⟨2, ![50000, 1]⟩
abbrev S128x64 : Shape := ⟨2, ![128, 64]⟩
abbrev S64x128 : Shape := ⟨2, ![64, 128]⟩
abbrev S2000x128 : Shape := ⟨2, ![2000, 128]⟩
abbrev S2000x1 : Shape := ⟨2, ![2000, 1]⟩
abbrev S2000x64 : Shape := ⟨2, ![2000, 64]⟩

abbrev nBuf : Space → Nat
  | .hbm => 33
  | .vmem => 20
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S50000x64, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x320, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S1x128, .f32⟩
  | .hbm, ⟨13, _⟩ => ⟨S1000000x128, .f32⟩
  | .hbm, ⟨14, _⟩ => ⟨S_, .f32⟩
  | .hbm, ⟨15, _⟩ => ⟨S50000x128, .f32⟩
  | .hbm, ⟨16, _⟩ => ⟨S1000000x1, .i32⟩
  | .hbm, ⟨17, _⟩ => ⟨S50000x128, .f32⟩
  | .hbm, ⟨18, _⟩ => ⟨S_, .f32⟩
  | .hbm, ⟨19, _⟩ => ⟨S1000000, .f32⟩
  | .hbm, ⟨20, _⟩ => ⟨S_, .f32⟩
  | .hbm, ⟨21, _⟩ => ⟨S50000, .f32⟩
  | .hbm, ⟨22, _⟩ => ⟨S1000000x1, .i32⟩
  | .hbm, ⟨23, _⟩ => ⟨S50000, .f32⟩
  | .hbm, ⟨24, _⟩ => ⟨S50000x1, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S128x64, .f32⟩
  | .hbm, ⟨30, _⟩ => ⟨S64x128, .f32⟩
  | .hbm, ⟨31, _⟩ => ⟨S1x128, .f32⟩
  | .hbm, ⟨32, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S2000x64, .f32⟩
  | .local _ .vmem, ⟨13, _⟩ => ⟨S2000x64, .f32⟩
  | .local _ .vmem, ⟨14, _⟩ => ⟨S128x128, .f32⟩
  | .local _ .vmem, ⟨15, _⟩ => ⟨S128x128, .f32⟩
  | .local _ .vmem, ⟨16, _⟩ => ⟨S64x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S128x128_S128x128_1_0 : S128x128.Transposes [1, 0] S128x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S50000x128 : S_.BroadcastsInDim S50000x128 (![] : Fin 0 → Fin S50000x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S50000 : S_.BroadcastsInDim S50000 (![] : Fin 0 → Fin S50000.rank)
  shapeCasts_S50000_S50000x1 : S50000.ShapeCasts S50000x1
  slices_S128x320_S128x128_0_0 : S128x320.Slices ![0, 0] S128x128
  slices_S128x320_S128x128_0_128 : S128x320.Slices ![0, 128] S128x128
  slices_S128x320_S128x64_0_256 : S128x320.Slices ![0, 256] S128x64
  transposes_S128x64_S64x128_1_0 : S128x64.Transposes [1, 0] S64x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x64_S2000x64_0_0 : ∀ a, (![0, 0] : Fin 2 → Nat) a + S2000x64.size a ≤ S2000x64.size a
  h_S2000x64 : 0 < S2000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S2000x128 : S1x128.Broadcasts S2000x128
  dot_S8000x128_S128x128_S8000x128_1_0_0_1_n_n_wf : DotDims.WF S8000x128 S128x128 S8000x128 [1] [0] [0] [1] [] []
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S2000x128_S128x128_S2000x128_1_0_0_1_n_n_wf : DotDims.WF S2000x128 S128x128 S2000x128 [1] [0] [0] [1] [] []
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .f32 = 32 ∨ (Rect.block (s := S1000000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S1000000x128.size a
  hwx0_5 : ∀ i : grid0.Coords, EltTy.bits .f32 = 32 ∨ (Rect.block (s := S1000000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S50000x64 : Shape := ⟨2, ![50000, 64]⟩
abbrev S128x128 : Shape := ⟨2, ![128, 128]⟩
abbrev S128 : Shape := ⟨1, ![128]⟩
abbrev S128x320 : Shape := ⟨2, ![128, 320]⟩
abbrev S1x128 : Shape := ⟨2, ![1, 128]⟩
abbrev S_ : Shape := ⟨0, ![]⟩
abbrev S50000x128 : Shape := ⟨2, ![50000, 128]⟩
abbrev S1000000x1 : Shape := ⟨2, ![1000000, 1]⟩
abbrev S50000 : Shape := ⟨1, ![50000]⟩
abbrev S50000x1 : Shape := ⟨2, ![50000, 1]⟩
abbrev S50000x320 : Shape := ⟨2, ![50000, 320]⟩
abbrev S320x128 : Shape := ⟨2, ![320, 128]⟩

abbrev nBuf : Space → Nat
  | .hbm => 53
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S50000x64, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x320, .f32⟩
  | .hbm, ⟨8, _⟩ => ⟨S128, .f32⟩
  | .hbm, ⟨9, _⟩ => ⟨S128x128, .f32⟩
  | .hbm, ⟨10, _⟩ => ⟨S1000000x128, .f32⟩
  | .hbm, ⟨11, _⟩ => ⟨S1x128, .f32⟩
  | .hbm, ⟨12, _⟩ => ⟨S1000000x128, .f32⟩
  | .hbm, ⟨13, _⟩ => ⟨S1000000x128, .f32⟩
  | .hbm, ⟨14, _⟩ => ⟨S128x128, .f32⟩
  | .hbm, ⟨15, _⟩ => ⟨S1000000x128, .f32⟩
  | .hbm, ⟨16, _⟩ => ⟨S1x128, .f32⟩
  | .hbm, ⟨17, _⟩ => ⟨S1000000x128, .f32⟩
  | .hbm, ⟨18, _⟩ => ⟨S1000000x128, .f32⟩
  | .hbm, ⟨19, _⟩ => ⟨S1000000x128, .f32⟩
  | .hbm, ⟨20, _⟩ => ⟨S1000000x128, .f32⟩
  | .hbm, ⟨21, _⟩ => ⟨S_, .f32⟩
  | .hbm, ⟨22, _⟩ => ⟨S1000000x128, .f32⟩
  | .hbm, ⟨23, _⟩ => ⟨S1000000x128, .f32⟩
  | .hbm, ⟨24, _⟩ => ⟨S_, .f32⟩
  | .hbm, ⟨25, _⟩ => ⟨S1000000x128, .f32⟩
  | .hbm, ⟨26, _⟩ => ⟨S1000000x128, .f32⟩
  | .hbm, ⟨27, _⟩ => ⟨S1000000x128, .f32⟩
  | .hbm, ⟨28, _⟩ => ⟨S_, .f32⟩
  | .hbm, ⟨29, _⟩ => ⟨S50000x128, .f32⟩
  | .hbm, ⟨30, _⟩ => ⟨S1000000x1, .i32⟩
  | .hbm, ⟨31, _⟩ => ⟨S50000x128, .f32⟩
  | .hbm, ⟨32, _⟩ => ⟨S_, .f32⟩
  | .hbm, ⟨33, _⟩ => ⟨S1000000, .f32⟩
  | .hbm, ⟨34, _⟩ => ⟨S_, .f32⟩
  | .hbm, ⟨35, _⟩ => ⟨S50000, .f32⟩
  | .hbm, ⟨36, _⟩ => ⟨S1000000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x320, .f32⟩
  | .hbm, ⟨45, _⟩ => ⟨S320x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_cst : Ref sig .tc := ⟨.hbm, 50, rfl⟩
abbrev main_call0_v0 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S_S50000x128 : S_.BroadcastsInDim S50000x128 (![] : Fin 0 → Fin S50000x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x64_S50000x320_d1 : Shape.Concatenates [S50000x128, S50000x128, S50000x64] S50000x320 1
  transposes_S128x320_S320x128_1_0 : S128x320.Transposes [1, 0] S320x128
  bcast_S1x128_S50000x128_0_1 : S1x128.BroadcastsInDim S50000x128 (![0, 1] : Fin 2 → Fin S50000x128.rank)
  dot_S1000000x128_S128x128_S1000000x128_1_0_0_1_n_n_wf : DotDims.WF S1000000x128 S128x128 S1000000x128 [1] [0] [0] [1] [] []
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S50000x320_S320x128_S50000x128_1_0_0_1_n_n_wf : DotDims.WF S50000x320 S320x128 S50000x128 [1] [0] [0] [1] [] []

variable [Facts₀]

def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x320_S320x128_S50000x128_1_0_0_1_n_n : DotDims S50000x320 S320x128 S50000x128 where
  lhsContracting := [1]
  rhsContracting := [0]
  lhsNonContracting := [0]
  rhsNonContracting := [1]
  lhsBatch := []
  rhsBatch := []
  wf := dot_S50000x320_S320x128_S50000x128_1_0_0_1_n_n_wf

class Facts : Prop extends Facts₀ where

variable [Facts]
-- ==== Proof.KernelRun.lean ====
/-
  The kernel program's run with its result named: every weakly fair execution of the whole program — four host
  operations, the first region, eighteen host operations, the second region — terminates without a fault, leaves
  the arguments as launched, and leaves the result buffer at the contents the last segment boundary gives it. The
  segments run one after the other over the thread state "every unscoped buffer at the boundary's contents", each
  segment entered from what the one before leaves; the final state is then read at the result buffer and at each
  argument, and an argument's contents are followed back through the boundaries to the launch memory.
-/
import proofs.«109738_j30365418783528_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v20) = W4 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v20 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Run

end
-- ==== Proof.LibMatRead.lean ====
/-
  Two matrix products read at an index, over the extended reals, for any dimension record with the stated axes: the
  product that contracts the second axis of both operands (rows against rows), and the one that contracts the second
  axis of the left with the first of the right (rows against columns). Into a zero accumulator each is the plain sum
  over the shared axis of the products of the entries; the contraction's index type has one coordinate, and the sum is
  re-indexed by it.
-/
import Idealize.ShloMosaic.PureOps.Ideal.Laws
import Idealize.ShloMosaic.Lib.ValueIdx

noncomputable section
open scoped BigOperators
open Idealize.ShloMosaic Idealize.ShloMosaic.ValueIdx

namespace Cert.MatRead

/-- A product that contracts the second axis of both operands, into a zero accumulator, read at an index: the sum over
    the shared axis of row `a` of the left operand times row `b` of the right. -/
theorem matmul_rows_apply {m k n : Nat} {φ₁ φ₂ : FTy}
    (d : DotDims ⟨2, ![m, k]⟩ ⟨2, ![n, k]⟩ ⟨2, ![m, n]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (A : FVec Ideal ⟨2, ![m, k]⟩ φ₁) (B : FVec Ideal ⟨2, ![n, k]⟩ φ₂) (a : Fin m) (b : Fin n) :
    FloatOps.matmul d prec A B (constant ⟨2, ![m, n]⟩ .f32 0x00000000#32) (ix2 a b)
      = ∑ c : Fin k, A (ix2 a c) * B (ix2 b c) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 b c := by
    funext ax; apply Fin.ext
    match ax with
    | ⟨0, _⟩ => simp [DotDims.rhsIdx, hrc, hrn, hrb]; exact key1 _ _ (by simp [hlb, hln, hrn])
    | ⟨1, _⟩ => exact (d.rhsIdx_val_of_single hrc _ _).trans c2
  rw [l2, r2]

/-- A product that contracts the second axis of the left operand with the first of the right, into a zero accumulator,
    read at an index: row `a` of the left operand times column `b` of the right. -/
theorem matmul_row_col_apply {m k n : Nat} {φ₁ φ₂ : FTy}
    (d : DotDims ⟨2, ![m, k]⟩ ⟨2, ![k, n]⟩ ⟨2, ![m, n]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (A : FVec Ideal ⟨2, ![m, k]⟩ φ₁) (B : FVec Ideal ⟨2, ![k, n]⟩ φ₂) (a : Fin m) (b : Fin n) :
    FloatOps.matmul d prec A B (constant ⟨2, ![m, n]⟩ .f32 0x00000000#32) (ix2 a b)
      = ∑ c : Fin k, A (ix2 a c) * B (ix2 c b) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 c b := by
    funext ax; apply Fin.ext
    match ax with
    | ⟨0, _⟩ => exact (d.rhsIdx_val_of_single hrc _ _).trans c2
    | ⟨1, _⟩ => simp [DotDims.rhsIdx, hrc, hrn, hrb]; exact key1 _ _ (by simp [hlb, hln, hrn])
  rw [l2, r2]

end Cert.MatRead
-- ==== Proof.Spec.lean ====
/-
  The two stages of the graph readout as functions on the extended reals, entry by entry.

  Stage one, the gated projection of a row `x` of the node features: with weight matrices `u`, `v` (inputs along the
  rows, outputs along the columns) and bias rows `a`, `b`, output `q` is
  `(∑ₖ x[k]·u[k,q] + a[q]) · σ(∑ₖ x[k]·v[k,q] + b[q])`, `σ` the logistic function.

  Stage two, per graph row: with the segment sums `z`, the node counts `c` (one column), the graph features `g` and
  three weight blocks `wa`, `wb`, `wc`, output `q` is
  `max (∑ₖ z[k]·wa[k,q] + ∑ₖ (z[k] / max(c,1))·wb[k,q] + ∑ₖ g[k]·wc[k,q] + bias[q]) 0`.

  Both are stated twice: over operands already laid out for a row-by-column product (`gate`, `readout`: the number
  of rows `R` is a parameter, so the same definition reads one block of rows or the whole array), and over the
  operands as the caller gives them (`gateRaw`, `readoutRaw`: the weights with outputs along the rows, the biases and
  counts as vectors, the three weight blocks as column ranges `[0,128)`, `[128,256)`, `[256,320)` of one matrix).
  The last lemma splits a sum over 320 terms into those three ranges; addition of extended reals is commutative and
  associative, so no finiteness is needed.
-/
import Idealize.ShloMosaic.PureOps.Ideal
import Idealize.ShloMosaic.Lib.ValueIdx

noncomputable section
open scoped BigOperators
open Idealize.ShloMosaic Idealize.ShloMosaic.ValueIdx

namespace Cert.Readout

/-- Entry `(p, q)` of the gated projection of the rows `x`. -/
def gate {R : Nat} (x : (⟨2, ![R, 128]⟩ : Shape).Idx → EReal) (u : (⟨2, ![128, 128]⟩ : Shape).Idx → EReal)
    (a : (⟨2, ![1, 128]⟩ : Shape).Idx → EReal) (v : (⟨2, ![128, 128]⟩ : Shape).Idx → EReal)
    (b : (⟨2, ![1, 128]⟩ : Shape).Idx → EReal) (p : Fin R) (q : Fin 128) : EReal :=
  (∑ k : Fin 128, x (ix2 p k) * u (ix2 k q) + a (ix2 (0 : Fin 1) q))
    * Ideal.logistic (∑ k : Fin 128, x (ix2 p k) * v (ix2 k q) + b (ix2 (0 : Fin 1) q))

/-- The gated projection as an array. -/
def gateArr {R : Nat} (x : (⟨2, ![R, 128]⟩ : Shape).Idx → EReal) (u : (⟨2, ![128, 128]⟩ : Shape).Idx → EReal)
    (a : (⟨2, ![1, 128]⟩ : Shape).Idx → EReal) (v : (⟨2, ![128, 128]⟩ : Shape).Idx → EReal)
    (b : (⟨2, ![1, 128]⟩ : Shape).Idx → EReal) : (⟨2, ![R, 128]⟩ : Shape).Idx → EReal :=
  fun i => gate x u a v b (i 0) (i 1)

/-- Entry `(p, q)` of the readout of the rows `z`, `c`, `g`. -/
def readout {R : Nat} (z : (⟨2, ![R, 128]⟩ : Shape).Idx → EReal) (c : (⟨2, ![R, 1]⟩ : Shape).Idx → EReal)
    (g : (⟨2, ![R, 64]⟩ : Shape).Idx → EReal) (wa wb : (⟨2, ![128, 128]⟩ : Shape).Idx → EReal)
    (wc : (⟨2, ![64, 128]⟩ : Shape).Idx → EReal) (bias : (⟨2, ![1, 128]⟩ : Shape).Idx → EReal)
    (p : Fin R) (q : Fin 128) : EReal :=
  max (((∑ k : Fin 128, z (ix2 p k) * wa (ix2 k q)
        + ∑ k : Fin 128, Ideal.div (z (ix2 p k)) (max (c (ix2 p (0 : Fin 1))) 1) * wb (ix2 k q))
      + ∑ k : Fin 64, g (ix2 p k) * wc (ix2 k q))
    + bias (ix2 (0 : Fin 1) q)) 0

/-- The readout as an array. -/
def readoutArr {R : Nat} (z : (⟨2, ![R, 128]⟩ : Shape).Idx → EReal) (c : (⟨2, ![R, 1]⟩ : Shape).Idx → EReal)
    (g : (⟨2, ![R, 64]⟩ : Shape).Idx → EReal) (wa wb : (⟨2, ![128, 128]⟩ : Shape).Idx → EReal)
    (wc : (⟨2, ![64, 128]⟩ : Shape).Idx → EReal) (bias : (⟨2, ![1, 128]⟩ : Shape).Idx → EReal) :
    (⟨2, ![R, 128]⟩ : Shape).Idx → EReal :=
  fun i => readout z c g wa wb wc bias (i 0) (i 1)

/-- Column `k` of the first range of 320 columns. -/
def lo (k : Fin 128) : Fin 320 := ⟨k.val, by omega⟩
/-- Column `k` of the second range. -/
def mid (k : Fin 128) : Fin 320 := ⟨128 + k.val, by omega⟩
/-- Column `k` of the third range. -/
def hi (k : Fin 64) : Fin 320 := ⟨256 + k.val, by omega⟩

/-- The gated projection over the caller's operands: the weights `w1`, `w2` have the outputs along their rows, the
    biases are vectors. -/
def gateRaw {R : Nat} (x : (⟨2, ![R, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (p : Fin R) (q : Fin 128) : EReal :=
  (∑ k : Fin 128, x (ix2 p k) * w1 (ix2 q k) + b1 (ix1 q))
    * Ideal.logistic (∑ k : Fin 128, x (ix2 p k) * w2 (ix2 q k) + b2 (ix1 q))

/-- The readout over the caller's operands: the counts a vector, one weight matrix with outputs along its rows and the
    three blocks side by side along its columns, the bias a vector. -/
def readoutRaw {R : Nat} (z : (⟨2, ![R, 128]⟩ : Shape).Idx → EReal) (cnt : (⟨1, ![R]⟩ : Shape).Idx → EReal)
    (g : (⟨2, ![R, 64]⟩ : Shape).Idx → EReal) (w3 : (⟨2, ![128, 320]⟩ : Shape).Idx → EReal)
    (b3 : (⟨1, ![128]⟩ : Shape).Idx → EReal) (p : Fin R) (q : Fin 128) : EReal :=
  max (((∑ k : Fin 128, z (ix2 p k) * w3 (ix2 q (lo k))
        + ∑ k : Fin 128, Ideal.div (z (ix2 p k)) (max (cnt (ix1 p)) 1) * w3 (ix2 q (mid k)))
      + ∑ k : Fin 64, g (ix2 p k) * w3 (ix2 q (hi k)))
    + b3 (ix1 q)) 0

/-- A sum over 320 columns is the sum over the three ranges. -/
theorem sum_three {M : Type*} [AddCommMonoid M] (f : Fin 320 → M) :
    ∑ k : Fin 320, f k = (∑ k : Fin 128, f (lo k) + ∑ k : Fin 128, f (mid k)) + ∑ k : Fin 64, f (hi k) := by
  have h1 := Fin.sum_univ_add (a := 256) (b := 64) f
  have h2 := Fin.sum_univ_add (a := 128) (b := 128) (fun i : Fin 256 => f (Fin.castAdd 64 i))
  rw [h1, h2]
  rfl

end Cert.Readout

end
-- ==== Proof.Pay0.lean ====
/-
  What the first kernel stores for one block of 8000 node rows, entry by entry: the gated projection of those rows.
  The two products into a zero accumulator are plain sums over the shared axis; rounding an operand to a narrower
  format is the identity on extended reals; the bias row is repeated over the rows.
-/
import proofs.«109738_j30365418783528_2_alg».proof.Proof.Gen.KernelIdeal.Skeleton
import proofs.«109738_j30365418783528_2_alg».proof.Proof.LibMatRead
import proofs.«109738_j30365418783528_2_alg».proof.Proof.Spec
import Idealize.ShloMosaic.Lib.ValueLayout

noncomputable section
open scoped BigOperators
open Idealize.ShloMosaic Idealize.ShloMosaic.ValueIdx

namespace Cert.KernelIdeal.Pay

open Cert.KernelIdeal Cert.KernelIdeal.Gen Cert.Readout

/-- Entry `(p, q)` of the stored block is the gated projection of row `p` of the loaded rows. -/
theorem pay0_apply (x0 : FVec Ideal S8000x128 .f32) (x1 : FVec Ideal S128x128 .f32) (x3 : FVec Ideal S128x128 .f32)
    (x2 : FVec Ideal S1x128 .f32) (x4 : FVec Ideal S1x128 .f32) (p : Fin 8000) (q : Fin 128) :
    k0_pay1 (F := Ideal) x0 x1 x3 x2 x4 (ix2 p q) = gate x0 x1 x2 x3 x4 p q := by
  unfold k0_pay1 gate
  simp only [shapeCast_self]
  refine congrArg₂ (· * ·) (congrArg₂ (· + ·) ?_ ?_) (congrArg Ideal.logistic (congrArg₂ (· + ·) ?_ ?_))
  · exact Cert.MatRead.matmul_row_col_apply _ rfl rfl rfl rfl rfl rfl none _ _ p q
  · exact broadcastTo_1b_ab_apply x2 _ p q
  · exact Cert.MatRead.matmul_row_col_apply _ rfl rfl rfl rfl rfl rfl none _ _ p q
  · exact broadcastTo_1b_ab_apply x4 _ p q

end Cert.KernelIdeal.Pay

end
-- ==== Proof.Region0.lean ====
/-
  The array the first region leaves: the gated projection of all node rows.

  The region runs over 125 grid points; point `t` reads rows `8000 t … 8000 t + 7999` of the node features and the
  whole of the two weight matrices and the two bias rows, and writes back the same rows of the result. So what a point
  writes back is a block of ONE whole-array function of the arrays the region finds, and since the 125 blocks cover
  all rows, the result array ends holding that function. Stated for any contents `V` the region is entered from.
-/
import proofs.«109738_j30365418783528_2_alg».proof.Proof.Gen.KernelIdeal.Frame
import proofs.«109738_j30365418783528_2_alg».proof.Proof.Pay0
import Idealize.ShloMosaic.Lib.Pipeline.Value

set_option maxRecDepth 16384

noncomputable section
open scoped BigOperators
open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen Cert.Readout

variable (V : (c : Dev nD) → (b : Ref sig .tc) → Buf (Elt Ideal) ((c : Thread nD τ).loc b))

theorem zero_offsets : (![0, 0] : Fin 2 → Nat) = fun _ => 0 := funext fun a => by fin_cases a <;> rfl

/-- An entry of a stored block, as an entry of the whole-array gated projection: the block's row `j 0` of the loaded
    node rows is row `i 0` of the node features, the weights and biases are loaded whole, the column is the same. -/
theorem block_entry (X : FVec Ideal S1000000x128 .f32) (u : FVec Ideal S128x128 .f32) (a : FVec Ideal S1x128 .f32)
    (v : FVec Ideal S128x128 .f32) (b : FVec Ideal S1x128 .f32)
    (x0 : FVec Ideal S8000x128 .f32) (x1 x3 : FVec Ideal S128x128 .f32) (x2 x4 : FVec Ideal S1x128 .f32)
    (j : S8000x128.Idx) (i : S1000000x128.Idx)
    (h0 : ∀ k : Fin 128, x0 (ix2 (j 0) k) = X (ix2 (i 0) k)) (h1 : x1 = u) (h2 : x2 = a) (h3 : x3 = v) (h4 : x4 = b)
    (hcol : (i 1).val = (j 1).val) :
    k0_pay1 (F := Ideal) x0 x1 x3 x2 x4 j = gateArr X u a v b i := by
  subst h1 h2 h3 h4
  obtain ⟨p, q, rfl⟩ : ∃ (p : Fin 8000) (q : Fin 128), j = ix2 p q := ⟨j 0, j 1, eq_ix2 j⟩
  obtain ⟨r, s, rfl⟩ : ∃ (r : Fin 1000000) (s : Fin 128), i = ix2 r s := ⟨i 0, i 1, eq_ix2 i⟩
  have e : s = q := Fin.ext hcol
  subst e
  have h0' : ∀ k : Fin 128, x0 (ix2 p k) = X (ix2 r k) := h0
  rw [Pay.pay0_apply]
  show gate x0 x1 x2 x3 x4 p s = gate X x1 x2 x3 x4 r s
  unfold gate
  simp only [h0']

/-- The printed index maps, decided over the grid: the node rows' window moves with the output's, every other window
    stays at block zero, and the output's block index stays below 125. -/
theorem idx_facts : ∀ t : Fin cfg0.N, win0_0.index t (0 : Fin 2) = win0_5.index t (0 : Fin 2)
    ∧ win0_0.index t (1 : Fin 2) = 0 ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 124 :=
  (by decide +kernel : ∀ t : Fin grid0.N, _)

/-- Every block of rows is some point's. -/
theorem idx_onto : ∀ q0 : Fin 125, ∃ t : Fin cfg0.N, win0_5.index t = ![q0.val, 0] :=
  (by decide +kernel : ∀ q0 : Fin 125, ∃ t : Fin grid0.N, win0_5.index t = ![q0.val, 0])

/-- A window whose block is its whole array reads that array. -/
theorem whole1 (c : Dev nD) (t : Fin cfg0.N) : iblk0 V c 1 t = V c main_v0 := by
  obtain ⟨-, -, -, e0, e1, -⟩ := idx_facts t
  funext y
  unfold iblk0
  rw [View.read_apply]
  show V c main_v0 (((cfg0.win 1).blk t).view.emb y) = V c main_v0 y
  refine congrArg (V c main_v0) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem whole2 (c : Dev nD) (t : Fin cfg0.N) : iblk0 V c 2 t = V c main_v2 := by
  obtain ⟨-, -, -, -, -, e0, e1, -⟩ := idx_facts t
  funext y
  unfold iblk0
  rw [View.read_apply]
  show V c main_v2 (((cfg0.win 2).blk t).view.emb y) = V c main_v2 y
  refine congrArg (V c main_v2) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem whole3 (c : Dev nD) (t : Fin cfg0.N) : iblk0 V c 3 t = V c main_v1 := by
  obtain ⟨-, -, -, -, -, -, -, e0, e1, -⟩ := idx_facts t
  funext y
  unfold iblk0
  rw [View.read_apply]
  show V c main_v1 (((cfg0.win 3).blk t).view.emb y) = V c main_v1 y
  refine congrArg (V c main_v1) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem whole4 (c : Dev nD) (t : Fin cfg0.N) : iblk0 V c 4 t = V c main_v3 := by
  obtain ⟨-, -, -, -, -, -, -, -, -, e0, e1, -⟩ := idx_facts t
  funext y
  unfold iblk0
  rw [View.read_apply]
  show V c main_v3 (((cfg0.win 4).blk t).view.emb y) = V c main_v3 y
  refine congrArg (V c main_v3) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Row `p` of the node rows' block at point `t` is the node features' row at the same place as the output block's. -/
theorem rows0 (c : Dev nD) (t : Fin cfg0.N) (j : S8000x128.Idx) (k : Fin 128) :
    iblk0 V c 0 t (ix2 (j 0) k) = V c main_arg0 (ix2 ((((cfg0.win 5).blk t).view.emb j) 0) k) := by
  obtain ⟨e0, e1, e2, -⟩ := idx_facts t
  unfold iblk0
  rw [View.read_apply]
  show V c main_arg0 (((cfg0.win 0).blk t).view.emb (ix2 (j 0) k)) = V c main_arg0 _
  refine congrArg (V c main_arg0) (funext fun a => Fin.ext ?_)
  match a with
  | ⟨0, _⟩ => show win0_0.index t (0 : Fin 2) * 8000 + 1 * (j 0).val = win0_5.index t (0 : Fin 2) * 8000 + 1 * (j 0).val; rw [e0]
  | ⟨1, _⟩ => show win0_0.index t (1 : Fin 2) * 128 + 1 * k.val = k.val; omega

/-- What point `t` writes back is block `t` of the gated projection of the arrays the region finds. -/
theorem flushed_eq (c : Dev nD) (t : Fin cfg0.N) :
    (dat0 V c).flushed 5 t = ((cfg0.win 5).blk t).view.read (Elt Ideal)
      (gateArr (V c main_arg0) (V c main_v0) (V c main_v2) (V c main_v1) (V c main_v3)) := by
  show (cfg0.win 5).cut (grid0.coords t) ((dat0 V c).after 5 t) = _
  rw [after0_5]
  unfold out0_5
  rw [View.canon_unit_zero zero_offsets]
  simp only [View.ld_unit_zero (S := S8000x128) zero_offsets, View.ld_unit_zero (S := S128x128) zero_offsets,
    View.ld_unit_zero (S := S1x128) zero_offsets]
  obtain ⟨-, -, e2, -⟩ := idx_facts t
  funext j
  show k0_pay1 (F := Ideal) (iblk0 V c 0 t) (iblk0 V c 1 t) (iblk0 V c 3 t) (iblk0 V c 2 t) (iblk0 V c 4 t) j
    = gateArr (V c main_arg0) (V c main_v0) (V c main_v2) (V c main_v1) (V c main_v3) (((cfg0.win 5).blk t).view.emb j)
  exact block_entry (V c main_arg0) (V c main_v0) (V c main_v2) (V c main_v1) (V c main_v3)
    (iblk0 V c 0 t) (iblk0 V c 1 t) (iblk0 V c 3 t) (iblk0 V c 2 t) (iblk0 V c 4 t) j (((cfg0.win 5).blk t).view.emb j)
    (rows0 V c t j) (whole1 V c t) (whole2 V c t) (whole3 V c t) (whole4 V c t)
    (by show win0_5.index t (1 : Fin 2) * 128 + 1 * (j 1).val = (j 1).val; omega)

/-- An index of the array is in point `t`'s block iff each coordinate is in the block's range on its axis. -/
theorem mem_blk (t : Fin cfg0.N) (i : S1000000x128.Idx) :
    i ∈ ((cfg0.win 5).blk t).view.set ↔ ∀ a : Fin 2, win0_5.index t a * S8000x128.size a ≤ (i a).val ∧ (i a).val < win0_5.index t a * S8000x128.size a + S8000x128.size a := by
  show i ∈ ((View.whole main_v4).slice (win0_5.rect t)).set ↔ _
  rw [View.set_slice_whole, Rect.mem_set_unit]
  exact Iff.rfl

/-- Every entry of the result is in the block of the point that holds its row. -/
theorem cover (i : S1000000x128.Idx) : ∃ t : Fin cfg0.N, (cfg0.win 5).flush t = true ∧ i ∈ ((cfg0.win 5).blk t).view.set := by
  have hi0 : (i 0).val < 1000000 := (i 0).isLt
  have hi1 : (i 1).val < 128 := (i 1).isLt
  obtain ⟨t, ht⟩ := idx_onto ⟨(i 0).val / 8000, by omega⟩
  have q0 : win0_5.index t (0 : Fin 2) = (i 0).val / 8000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 8000 ≤ (i 0).val ∧ (i 0).val < win0_5.index t (0 : Fin 2) * 8000 + 8000; omega
  | ⟨1, _⟩ => show win0_5.index t (1 : Fin 2) * 128 ≤ (i 1).val ∧ (i 1).val < win0_5.index t (1 : Fin 2) * 128 + 128; omega

/-- The result array after the region: the gated projection of the arrays the region finds. -/
theorem final (c : Dev nD) : (dat0 V c).arrAt 5 cfg0.N
    = gateArr (V c main_arg0) (V c main_v0) (V c main_v2) (V c main_v1) (V c main_v3) :=
  (dat0 V c).arrAt_eq_of_cover 5 _ (fun t _ => flushed_eq V c t) cover

end Cert.KernelIdeal.Region0

end
-- ==== Proof.LibColBroadcast.lean ====
/-
  One column repeated over many: an `[a, 1]` array broadcast to `[a, b]` reads, at `(p, c)`, the operand's one column
  at row `p`.
-/
import Idealize.ShloMosaic.Lib.Pipeline.Value
import Idealize.ShloMosaic.Lib.ValueIdx

open Idealize.ShloMosaic Idealize.ShloMosaic.ValueIdx

namespace Cert.ColBroadcast

/-- An `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColBroadcast
-- ==== Proof.Pay1.lean ====
/-
  What the second kernel stores for one block of 2000 graph rows, entry by entry: the readout of those rows. Three
  products into zero accumulators are plain sums over their shared axes; the mean operand is the sum operand divided,
  entry by entry, by the row's count clamped below by one (one column repeated over the lanes); the bias row is
  repeated over the rows; the literals one and zero are the extended reals one and zero.
-/
import proofs.«109738_j30365418783528_2_alg».proof.Proof.Gen.KernelIdeal.Skeleton
import proofs.«109738_j30365418783528_2_alg».proof.Proof.LibMatRead
import proofs.«109738_j30365418783528_2_alg».proof.Proof.LibColBroadcast
import proofs.«109738_j30365418783528_2_alg».proof.Proof.Spec
import Idealize.ShloMosaic.Lib.ValueLayout
import Idealize.ShloMosaic.Lib.IdealHost

noncomputable section
open scoped BigOperators
open Idealize.ShloMosaic Idealize.ShloMosaic.ValueIdx

namespace Cert.KernelIdeal.Pay

open Cert.KernelIdeal Cert.KernelIdeal.Gen Cert.Readout

/-- Entry `(p, q)` of the stored block is the readout of row `p` of the loaded rows. -/
theorem pay1_apply (z : FVec Ideal S2000x128 .f32) (c : FVec Ideal S2000x1 .f32) (g : FVec Ideal S2000x64 .f32)
    (wa wb : FVec Ideal S128x128 .f32) (wc : FVec Ideal S64x128 .f32) (bias : FVec Ideal S1x128 .f32)
    (p : Fin 2000) (q : Fin 128) :
    k1_pay1 (F := Ideal) z c g wa wb wc bias (ix2 p q) = readout z c g wa wb wc bias p q := by
  unfold k1_pay1 readout
  simp only [shapeCast_self]
  show max _ (Ideal.ofBits .f32 0x00000000#32) = max _ 0
  rw [Ideal.ofBits_zero_f32]
  refine congrArg (fun t => max t (0 : EReal)) ?_
  refine congrArg₂ (· + ·) (congrArg₂ (· + ·) (congrArg₂ (· + ·) ?_ ?_) ?_) ?_
  · exact Cert.MatRead.matmul_row_col_apply _ rfl rfl rfl rfl rfl rfl none _ _ p q
  · refine (Cert.MatRead.matmul_row_col_apply _ rfl rfl rfl rfl rfl rfl none _ _ p q).trans ?_
    refine Finset.sum_congr rfl fun k _ => ?_
    refine congrArg (fun t => Ideal.div (z (ix2 p k)) t * wb (ix2 k q)) ?_
    refine (Cert.ColBroadcast.broadcastTo_a1_ab_apply _ _ p k).trans ?_
    show max (c (ix2 p (0 : Fin 1))) (Ideal.ofBits .f32 0x3F800000#32) = max _ 1
    rw [Ideal.ofBits_one_f32]
  · exact Cert.MatRead.matmul_row_col_apply _ rfl rfl rfl rfl rfl rfl none _ _ p q
  · exact broadcastTo_1b_ab_apply bias _ p q

end Cert.KernelIdeal.Pay

end
-- ==== Proof.Region1.lean ====
/-
  The array the second region leaves: the readout of all graph rows.

  The region runs over 25 grid points; point `t` reads rows `2000 t … 2000 t + 1999` of the segment sums, of the
  one-column counts and of the graph features, and the whole of the three weight blocks and the bias row, and writes
  back the same rows of the result. What a point writes back is a block of one whole-array function of the arrays the
  region finds, and the 25 blocks cover all rows, so the result array ends holding that function. Stated for any
  contents `V` the region is entered from.
-/
import proofs.«109738_j30365418783528_2_alg».proof.Proof.Gen.KernelIdeal.Frame
import proofs.«109738_j30365418783528_2_alg».proof.Proof.Pay1
import Idealize.ShloMosaic.Lib.Pipeline.Value

set_option maxRecDepth 16384

noncomputable section
open scoped BigOperators
open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen Cert.Readout

variable (V : (c : Dev nD) → (b : Ref sig .tc) → Buf (Elt Ideal) ((c : Thread nD τ).loc b))

theorem zero_offsets : (![0, 0] : Fin 2 → Nat) = fun _ => 0 := funext fun a => by fin_cases a <;> rfl

/-- An entry of a stored block, as an entry of the whole-array readout: the block's row `j 0` of the three loaded row
    operands is row `i 0` of the whole arrays, the weights and the bias are loaded whole, the column is the same. -/
theorem block_entry (Z : FVec Ideal S50000x128 .f32) (C : FVec Ideal S50000x1 .f32) (G : FVec Ideal S50000x64 .f32)
    (wa wb : FVec Ideal S128x128 .f32) (wc : FVec Ideal S64x128 .f32) (bias : FVec Ideal S1x128 .f32)
    (x0 : FVec Ideal S2000x128 .f32) (x1 : FVec Ideal S2000x1 .f32) (x2 : FVec Ideal S2000x64 .f32)
    (x3 x4 : FVec Ideal S128x128 .f32) (x5 : FVec Ideal S64x128 .f32) (x6 : FVec Ideal S1x128 .f32)
    (j : S2000x128.Idx) (i : S50000x128.Idx)
    (h0 : ∀ k : Fin 128, x0 (ix2 (j 0) k) = Z (ix2 (i 0) k))
    (h1 : x1 (ix2 (j 0) (0 : Fin 1)) = C (ix2 (i 0) (0 : Fin 1)))
    (h2 : ∀ k : Fin 64, x2 (ix2 (j 0) k) = G (ix2 (i 0) k))
    (h3 : x3 = wa) (h4 : x4 = wb) (h5 : x5 = wc) (h6 : x6 = bias)
    (hcol : (i 1).val = (j 1).val) :
    k1_pay1 (F := Ideal) x0 x1 x2 x3 x4 x5 x6 j = readoutArr Z C G wa wb wc bias i := by
  subst h3 h4 h5 h6
  obtain ⟨p, q, rfl⟩ : ∃ (p : Fin 2000) (q : Fin 128), j = ix2 p q := ⟨j 0, j 1, eq_ix2 j⟩
  obtain ⟨r, s, rfl⟩ : ∃ (r : Fin 50000) (s : Fin 128), i = ix2 r s := ⟨i 0, i 1, eq_ix2 i⟩
  have e : s = q := Fin.ext hcol
  subst e
  have h0' : ∀ k : Fin 128, x0 (ix2 p k) = Z (ix2 r k) := h0
  have h1' : x1 (ix2 p (0 : Fin 1)) = C (ix2 r (0 : Fin 1)) := h1
  have h2' : ∀ k : Fin 64, x2 (ix2 p k) = G (ix2 r k) := h2
  rw [Pay.pay1_apply]
  show readout x0 x1 x2 x3 x4 x5 x6 p s = readout Z C G x3 x4 x5 x6 r s
  unfold readout
  simp only [h0', h1', h2']

/-- The printed index maps, decided over the grid: the three row windows move with the output's, the four whole
    windows stay at block zero, and the output's block index stays below 25. -/
theorem idx_facts : ∀ t : Fin cfg1.N, win1_0.index t (0 : Fin 2) = win1_7.index t (0 : Fin 2)
    ∧ win1_1.index t (0 : Fin 2) = win1_7.index t (0 : Fin 2)
    ∧ win1_2.index t (0 : Fin 2) = win1_7.index t (0 : Fin 2)
    ∧ win1_0.index t (1 : Fin 2) = 0 ∧ win1_1.index t (1 : Fin 2) = 0 ∧ win1_2.index t (1 : Fin 2) = 0
    ∧ win1_7.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) ≤ 24 :=
  (by decide +kernel : ∀ t : Fin grid1.N, _)

/-- Every block of rows is some point's. -/
theorem idx_onto : ∀ q0 : Fin 25, ∃ t : Fin cfg1.N, win1_7.index t = ![q0.val, 0] :=
  (by decide +kernel : ∀ q0 : Fin 25, ∃ t : Fin grid1.N, win1_7.index t = ![q0.val, 0])

/-- A window whose block is its whole array reads that array. -/
theorem whole3 (c : Dev nD) (t : Fin cfg1.N) : iblk1 V c 3 t = V c main_v14 := by
  obtain ⟨-, -, -, -, -, -, -, e0, e1, -⟩ := idx_facts t
  funext y
  unfold iblk1
  rw [View.read_apply]
  show V c main_v14 (((cfg1.win 3).blk t).view.emb y) = V c main_v14 y
  refine congrArg (V c main_v14) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem whole4 (c : Dev nD) (t : Fin cfg1.N) : iblk1 V c 4 t = V c main_v16 := by
  obtain ⟨-, -, -, -, -, -, -, -, -, e0, e1, -⟩ := idx_facts t
  funext y
  unfold iblk1
  rw [View.read_apply]
  show V c main_v16 (((cfg1.win 4).blk t).view.emb y) = V c main_v16 y
  refine congrArg (V c main_v16) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem whole5 (c : Dev nD) (t : Fin cfg1.N) : iblk1 V c 5 t = V c main_v18 := by
  obtain ⟨-, -, -, -, -, -, -, -, -, -, -, e0, e1, -⟩ := idx_facts t
  funext y
  unfold iblk1
  rw [View.read_apply]
  show V c main_v18 (((cfg1.win 5).blk t).view.emb y) = V c main_v18 y
  refine congrArg (V c main_v18) (funext fun a => Fin.ext ?_)
  match a with
  | ⟨0, _⟩ => show win1_5.index t (0 : Fin 2) * 64 + 1 * (y 0).val = (y 0).val; omega
  | ⟨1, _⟩ => show win1_5.index t (1 : Fin 2) * 128 + 1 * (y 1).val = (y 1).val; omega

theorem whole6 (c : Dev nD) (t : Fin cfg1.N) : iblk1 V c 6 t = V c main_v19 := by
  obtain ⟨-, -, -, -, -, -, -, -, -, -, -, -, -, e0, e1, -⟩ := idx_facts t
  funext y
  unfold iblk1
  rw [View.read_apply]
  show V c main_v19 (((cfg1.win 6).blk t).view.emb y) = V c main_v19 y
  refine congrArg (V c main_v19) (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Row `j 0` of the segment sums' block at point `t` is the array's row at the same place as the output block's. -/
theorem rows0 (c : Dev nD) (t : Fin cfg1.N) (j : S2000x128.Idx) (k : Fin 128) :
    iblk1 V c 0 t (ix2 (j 0) k) = V c main_v7 (ix2 ((((cfg1.win 7).blk t).view.emb j) 0) k) := by
  obtain ⟨e0, -, -, e3, -⟩ := idx_facts t
  unfold iblk1
  rw [View.read_apply]
  show V c main_v7 (((cfg1.win 0).blk t).view.emb (ix2 (j 0) k)) = V c main_v7 _
  refine congrArg (V c main_v7) (funext fun a => Fin.ext ?_)
  match a with
  | ⟨0, _⟩ => show win1_0.index t (0 : Fin 2) * 2000 + 1 * (j 0).val = win1_7.index t (0 : Fin 2) * 2000 + 1 * (j 0).val; rw [e0]
  | ⟨1, _⟩ => show win1_0.index t (1 : Fin 2) * 128 + 1 * k.val = k.val; omega

/-- The same for the one-column counts. -/
theorem rows1 (c : Dev nD) (t : Fin cfg1.N) (j : S2000x128.Idx) :
    iblk1 V c 1 t (ix2 (j 0) (0 : Fin 1)) = V c main_v12 (ix2 ((((cfg1.win 7).blk t).view.emb j) 0) (0 : Fin 1)) := by
  obtain ⟨-, e0, -, -, e3, -⟩ := idx_facts t
  unfold iblk1
  rw [View.read_apply]
  show V c main_v12 (((cfg1.win 1).blk t).view.emb (ix2 (j 0) (0 : Fin 1))) = V c main_v12 _
  refine congrArg (V c main_v12) (funext fun a => Fin.ext ?_)
  match a with
  | ⟨0, _⟩ => show win1_1.index t (0 : Fin 2) * 2000 + 1 * (j 0).val = win1_7.index t (0 : Fin 2) * 2000 + 1 * (j 0).val; rw [e0]
  | ⟨1, _⟩ => show win1_1.index t (1 : Fin 2) * 1 + 1 * 0 = 0; omega

/-- The same for the graph features. -/
theorem rows2 (c : Dev nD) (t : Fin cfg1.N) (j : S2000x128.Idx) (k : Fin 64) :
    iblk1 V c 2 t (ix2 (j 0) k) = V c main_arg2 (ix2 ((((cfg1.win 7).blk t).view.emb j) 0) k) := by
  obtain ⟨-, -, e0, -, -, e3, -⟩ := idx_facts t
  unfold iblk1
  rw [View.read_apply]
  show V c main_arg2 (((cfg1.win 2).blk t).view.emb (ix2 (j 0) k)) = V c main_arg2 _
  refine congrArg (V c main_arg2) (funext fun a => Fin.ext ?_)
  match a with
  | ⟨0, _⟩ => show win1_2.index t (0 : Fin 2) * 2000 + 1 * (j 0).val = win1_7.index t (0 : Fin 2) * 2000 + 1 * (j 0).val; rw [e0]
  | ⟨1, _⟩ => show win1_2.index t (1 : Fin 2) * 64 + 1 * k.val = k.val; omega

/-- What point `t` writes back is block `t` of the readout of the arrays the region finds. -/
theorem flushed_eq (c : Dev nD) (t : Fin cfg1.N) :
    (dat1 V c).flushed 7 t = ((cfg1.win 7).blk t).view.read (Elt Ideal)
      (readoutArr (V c main_v7) (V c main_v12) (V c main_arg2) (V c main_v14) (V c main_v16) (V c main_v18) (V c main_v19)) := by
  show (cfg1.win 7).cut (grid1.coords t) ((dat1 V c).after 7 t) = _
  rw [after1_7]
  unfold out1_7
  rw [View.canon_unit_zero zero_offsets]
  simp only [View.ld_unit_zero (S := S2000x128) zero_offsets, View.ld_unit_zero (S := S2000x1) zero_offsets,
    View.ld_unit_zero (S := S2000x64) zero_offsets, View.ld_unit_zero (S := S128x128) zero_offsets,
    View.ld_unit_zero (S := S64x128) zero_offsets, View.ld_unit_zero (S := S1x128) zero_offsets]
  obtain ⟨-, -, -, -, -, -, e2, -⟩ := idx_facts t
  funext j
  show k1_pay1 (F := Ideal) (iblk1 V c 0 t) (iblk1 V c 1 t) (iblk1 V c 2 t) (iblk1 V c 3 t) (iblk1 V c 4 t) (iblk1 V c 5 t) (iblk1 V c 6 t) j
    = readoutArr (V c main_v7) (V c main_v12) (V c main_arg2) (V c main_v14) (V c main_v16) (V c main_v18) (V c main_v19) (((cfg1.win 7).blk t).view.emb j)
  exact block_entry (V c main_v7) (V c main_v12) (V c main_arg2) (V c main_v14) (V c main_v16) (V c main_v18) (V c main_v19)
    (iblk1 V c 0 t) (iblk1 V c 1 t) (iblk1 V c 2 t) (iblk1 V c 3 t) (iblk1 V c 4 t) (iblk1 V c 5 t) (iblk1 V c 6 t)
    j (((cfg1.win 7).blk t).view.emb j)
    (rows0 V c t j) (rows1 V c t j) (rows2 V c t j) (whole3 V c t) (whole4 V c t) (whole5 V c t) (whole6 V c t)
    (by show win1_7.index t (1 : Fin 2) * 128 + 1 * (j 1).val = (j 1).val; omega)

/-- An index of the array is in point `t`'s block iff each coordinate is in the block's range on its axis. -/
theorem mem_blk (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v20).slice (win1_7.rect t)).set ↔ _
  rw [View.set_slice_whole, Rect.mem_set_unit]
  exact Iff.rfl

/-- Every entry of the result is in the block of the point that holds its row. -/
theorem cover (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  obtain ⟨t, ht⟩ := idx_onto ⟨(i 0).val / 2000, by omega⟩
  have q0 : win1_7.index t (0 : Fin 2) = (i 0).val / 2000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-- The result array after the region: the readout of the arrays the region finds. -/
theorem final (c : Dev nD) : (dat1 V c).arrAt 7 cfg1.N
    = readoutArr (V c main_v7) (V c main_v12) (V c main_arg2) (V c main_v14) (V c main_v16) (V c main_v18) (V c main_v19) :=
  (dat1 V c).arrAt_eq_of_cover 7 _ (fun t _ => flushed_eq V c t) cover

end Cert.KernelIdeal.Region1

end
-- ==== Proof.HostRead.lean ====
/-
  The kernel program's result buffer as one function of the argument arrays.

  Between the launch and the first region the host transposes the two projection weights and lays the two biases out
  as rows; the region leaves the gated projection of the node rows. Between the regions the host adds the projected
  rows into their graphs' rows (a scatter-add into zeros, indexed by the node-to-graph vector), counts the nodes of
  each graph the same way (a scatter-add of ones), lays the counts out as a column, cuts the readout weight into its
  three column ranges and transposes each, and lays the last bias out as a row; the second region leaves the readout
  of these. Each buffer a region reads is followed back through the host operations to the launch memory.
-/
import proofs.«109738_j30365418783528_2_alg».proof.Proof.Region0
import proofs.«109738_j30365418783528_2_alg».proof.Proof.Region1
import Idealize.ShloMosaic.Lib.StableHlo.Run

set_option maxRecDepth 16384

noncomputable section
open Idealize.ShloMosaic Idealize.ShloMosaic.TcCoe Idealize.ShloMosaic.ValueIdx Idealize.SL.Sem Idealize.ShloMosaic.StableHlo

namespace Cert.KernelIdeal.HostRead

open Cert.KernelIdeal Cert.KernelIdeal.Gen Cert.Readout

/-- The gated projection of all node rows, from the arguments: the weights transposed, the biases as rows. -/
def gated (x0 : FVec Ideal S1000000x128 .f32) (x3 : FVec Ideal S128x128 .f32) (x4 : FVec Ideal S128 .f32)
    (x5 : FVec Ideal S128x128 .f32) (x6 : FVec Ideal S128 .f32) : FVec Ideal S1000000x128 .f32 :=
  gateArr x0 (transpose S128x128 [1, 0] x3 transposes_S128x128_S128x128_1_0) (shapeCast S1x128 x4 shapeCasts_S128_S1x128)
    (transpose S128x128 [1, 0] x5 transposes_S128x128_S128x128_1_0) (shapeCast S1x128 x6 shapeCasts_S128_S1x128)

/-- The rows `h` added into their graphs' rows. -/
def sums (x1 : IVec S1000000 32) (h : FVec Ideal S1000000x128 .f32) : FVec Ideal S50000x128 .f32 :=
  Host.scatterAdd scatter_S50000x128_S1000000x1_S1000000x128_1_0_0_1
    (broadcastInDim S50000x128 ![] bcast_S_S50000x128 (constant S_ .f32 0x00000000#32))
    (broadcastInDim S1000000x1 ![0] bcast_S1000000_S1000000x1_0 x1) h

/-- The number of nodes of each graph. -/
def counts (x1 : IVec S1000000 32) : FVec Ideal S50000 .f32 :=
  Host.scatterAdd scatter_S50000_S1000000x1_S1000000_n_0_0_1
    (broadcastInDim S50000 ![] bcast_S_S50000 (constant S_ .f32 0x00000000#32))
    (broadcastInDim S1000000x1 ![0] bcast_S1000000_S1000000x1_0 x1)
    (broadcastInDim S1000000 ![] bcast_S_S1000000 (constant S_ .f32 0x3F800000#32))

/-- The program's result, from the arguments. -/
def result (x0 : FVec Ideal S1000000x128 .f32) (x1 : IVec S1000000 32) (x2 : FVec Ideal S50000x64 .f32)
    (x3 : FVec Ideal S128x128 .f32) (x4 : FVec Ideal S128 .f32) (x5 : FVec Ideal S128x128 .f32) (x6 : FVec Ideal S128 .f32)
    (x7 : FVec Ideal S128x320 .f32) (x8 : FVec Ideal S128 .f32) : FVec Ideal S50000x128 .f32 :=
  readoutArr (sums x1 (gated x0 x3 x4 x5 x6)) (shapeCast S50000x1 (counts x1) shapeCasts_S50000_S50000x1) x2
    (transpose S128x128 [1, 0] (extractStridedSlice S128x128 ![0, 0] x7 slices_S128x320_S128x128_0_0) transposes_S128x128_S128x128_1_0)
    (transpose S128x128 [1, 0] (extractStridedSlice S128x128 ![0, 128] x7 slices_S128x320_S128x128_0_128) transposes_S128x128_S128x128_1_0)
    (transpose S64x128 [1, 0] (extractStridedSlice S128x64 ![0, 256] x7 slices_S128x320_S128x64_0_256) transposes_S128x64_S64x128_1_0)
    (shapeCast S1x128 x8 shapeCasts_S128_S1x128)

variable (m : (ℓ : Loc nD τ sig) → Buf (Elt Ideal) ℓ) (ρ : Dev nD → PrngReg)

/-! ## What the first region finds -/

theorem V1_arg0 (c : Dev nD) : V1 m ρ c main_arg0 = m ((c : Thread nD τ).loc main_arg0) := by
  show StableHlo.after hostOps0 (W0 m ρ c) (Proc.devRef .tc main_arg0) = _
  after_results <;> rfl
theorem V1_v0 (c : Dev nD) : V1 m ρ c main_v0
    = transpose S128x128 [1, 0] (m ((c : Thread nD τ).loc main_arg3)) transposes_S128x128_S128x128_1_0 := by
  show StableHlo.after hostOps0 (W0 m ρ c) (Proc.devRef .tc main_v0) = _
  after_results <;> rfl
theorem V1_v1 (c : Dev nD) : V1 m ρ c main_v1
    = transpose S128x128 [1, 0] (m ((c : Thread nD τ).loc main_arg5)) transposes_S128x128_S128x128_1_0 := by
  show StableHlo.after hostOps0 (W0 m ρ c) (Proc.devRef .tc main_v1) = _
  after_results <;> rfl
theorem V1_v2 (c : Dev nD) : V1 m ρ c main_v2
    = shapeCast S1x128 (m ((c : Thread nD τ).loc main_arg4)) shapeCasts_S128_S1x128 := by
  show StableHlo.after hostOps0 (W0 m ρ c) (Proc.devRef .tc main_v2) = _
  after_results <;> rfl
theorem V1_v3 (c : Dev nD) : V1 m ρ c main_v3
    = shapeCast S1x128 (m ((c : Thread nD τ).loc main_arg6)) shapeCasts_S128_S1x128 := by
  show StableHlo.after hostOps0 (W0 m ρ c) (Proc.devRef .tc main_v3) = _
  after_results <;> rfl

/-! ## What the first region leaves -/

/-- The projected rows. -/
theorem W2_v4 (c : Dev nD) : W2 m ρ c (Proc.devRef .tc main_v4)
    = gated (m ((c : Thread nD τ).loc main_arg0)) (m ((c : Thread nD τ).loc main_arg3)) (m ((c : Thread nD τ).loc main_arg4))
        (m ((c : Thread nD τ).loc main_arg5)) (m ((c : Thread nD τ).loc main_arg6)) := by
  have h := Region0.final (V1 m ρ) c
  rw [V1_arg0 m ρ c, V1_v0 m ρ c, V1_v2 m ρ c, V1_v1 m ρ c, V1_v3 m ρ c] at h
  exact (W2_arr m ρ c 5).trans h

/-- A buffer the first region does not touch and no earlier host operation writes is as launched. -/
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results <;> rfl)
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results <;> rfl)

/-! ## What the second region finds -/

theorem V3_v7 (c : Dev nD) : V3 m ρ c main_v7
    = sums (m ((c : Thread nD τ).loc main_arg1)) (gated (m ((c : Thread nD τ).loc main_arg0)) (m ((c : Thread nD τ).loc main_arg3))
        (m ((c : Thread nD τ).loc main_arg4)) (m ((c : Thread nD τ).loc main_arg5)) (m ((c : Thread nD τ).loc main_arg6))) := by
  show StableHlo.after hostOps1 (W2 m ρ c) (Proc.devRef .tc main_v7) = _
  after_results
  rw [W2_arg1 m ρ c, W2_v4 m ρ c]
  rfl
theorem V3_v12 (c : Dev nD) : V3 m ρ c main_v12
    = shapeCast S50000x1 (counts (m ((c : Thread nD τ).loc main_arg1))) shapeCasts_S50000_S50000x1 := by
  show StableHlo.after hostOps1 (W2 m ρ c) (Proc.devRef .tc main_v12) = _
  after_results
  rw [W2_arg1 m ρ c]
  rfl
theorem V3_arg2 (c : Dev nD) : V3 m ρ c main_arg2 = m ((c : Thread nD τ).loc main_arg2) := by
  show StableHlo.after hostOps1 (W2 m ρ c) (Proc.devRef .tc main_arg2) = _
  after_results
  exact W2_arg2 m ρ c
theorem V3_v14 (c : Dev nD) : V3 m ρ c main_v14
    = transpose S128x128 [1, 0] (extractStridedSlice S128x128 ![0, 0] (m ((c : Thread nD τ).loc main_arg7)) slices_S128x320_S128x128_0_0) transposes_S128x128_S128x128_1_0 := by
  show StableHlo.after hostOps1 (W2 m ρ c) (Proc.devRef .tc main_v14) = _
  after_results
  rw [W2_arg7 m ρ c]
theorem V3_v16 (c : Dev nD) : V3 m ρ c main_v16
    = transpose S128x128 [1, 0] (extractStridedSlice S128x128 ![0, 128] (m ((c : Thread nD τ).loc main_arg7)) slices_S128x320_S128x128_0_128) transposes_S128x128_S128x128_1_0 := by
  show StableHlo.after hostOps1 (W2 m ρ c) (Proc.devRef .tc main_v16) = _
  after_results
  rw [W2_arg7 m ρ c]
theorem V3_v18 (c : Dev nD) : V3 m ρ c main_v18
    = transpose S64x128 [1, 0] (extractStridedSlice S128x64 ![0, 256] (m ((c : Thread nD τ).loc main_arg7)) slices_S128x320_S128x64_0_256) transposes_S128x64_S64x128_1_0 := by
  show StableHlo.after hostOps1 (W2 m ρ c) (Proc.devRef .tc main_v18) = _
  after_results
  rw [W2_arg7 m ρ c]
theorem V3_v19 (c : Dev nD) : V3 m ρ c main_v19
    = shapeCast S1x128 (m ((c : Thread nD τ).loc main_arg8)) shapeCasts_S128_S1x128 := by
  show StableHlo.after hostOps1 (W2 m ρ c) (Proc.devRef .tc main_v19) = _
  after_results
  rw [W2_arg8 m ρ c]
  rfl

/-! ## What the second region leaves -/

/-- The result buffer at the last boundary is the program's result function of the arguments. -/
theorem W4_v20 (c : Dev nD) : W4 m ρ c (Proc.devRef .tc main_v20)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  have h := Region1.final (V3 m ρ) c
  rw [V3_v7 m ρ c, V3_v12 m ρ c, V3_arg2 m ρ c, V3_v14 m ρ c, V3_v16 m ρ c, V3_v18 m ρ c, V3_v19 m ρ c] at h
  exact (W4_arr m ρ c 7).trans h

end Cert.KernelIdeal.HostRead

end
-- ==== Proof.RefRead.lean ====
/-
  The reference program's two stages, read at an index.

  Its gated projection, entry `(r, j)`: the two products with the transposed weights are sums over the shared axis
  of `x[r,k]·w[j,k]`; the biases are repeated over the rows; `1 / (1 + e^(−y))` is the logistic function of `y`.
  Its readout, entry `(n, o)`, as a function of the segment sums and the counts (whatever they are): the product of
  the 320-column concatenation `[sums, sums / max(counts, 1), graph features]` with the transposed weight matrix is a
  sum over 320 columns, which splits into the three column ranges, each reading its own piece of the concatenation.
-/
import proofs.«109738_j30365418783528_2_alg».proof.Proof.Gen.ReferenceIdeal.Read
import proofs.«109738_j30365418783528_2_alg».proof.Proof.Spec
import Idealize.ShloMosaic.Lib.IdealHost

noncomputable section
open scoped BigOperators
open Idealize.ShloMosaic Idealize.ShloMosaic.ValueIdx

namespace Cert.ReferenceIdeal.RefRead

open Cert.ReferenceIdeal Cert.ReferenceIdeal.Read Cert.Readout

/-! ## The index maps the read-at-an-index lemmas compose, at an index given by its coordinates -/

theorem lidx1 (r : Fin 1000000) (j k : Fin 128) : lidx_main_v1 (ix2 r j) k = ix2 r k :=
  funext fun a => Fin.ext (by match a with | ⟨0, _⟩ => rfl | ⟨1, _⟩ => rfl)
theorem ridx1 (r : Fin 1000000) (j k : Fin 128) : idx_main_v0 (ridx_main_v1 (ix2 r j) k) = ix2 j k :=
  funext fun a => Fin.ext (by match a with | ⟨0, _⟩ => rfl | ⟨1, _⟩ => rfl)
theorem bidx1 (r : Fin 1000000) (j : Fin 128) : idx_main_v2 (idx_main_v3 (ix2 r j)) = ix1 j :=
  funext fun a => Fin.ext (by match a with | ⟨0, _⟩ => rfl)
theorem lidx6 (r : Fin 1000000) (j k : Fin 128) : lidx_main_v6 (ix2 r j) k = ix2 r k :=
  funext fun a => Fin.ext (by match a with | ⟨0, _⟩ => rfl | ⟨1, _⟩ => rfl)
theorem ridx6 (r : Fin 1000000) (j k : Fin 128) : idx_main_v5 (ridx_main_v6 (ix2 r j) k) = ix2 j k :=
  funext fun a => Fin.ext (by match a with | ⟨0, _⟩ => rfl | ⟨1, _⟩ => rfl)
theorem bidx6 (r : Fin 1000000) (j : Fin 128) : idx_main_v7 (idx_main_v8 (ix2 r j)) = ix1 j :=
  funext fun a => Fin.ext (by match a with | ⟨0, _⟩ => rfl)

/-- The reference's gated projection at `(r, j)`. -/
theorem gate_apply (x0 : FVec Ideal S1000000x128 .f32) (x3 : FVec Ideal S128x128 .f32) (x4 : FVec Ideal S128 .f32)
    (x5 : FVec Ideal S128x128 .f32) (x6 : FVec Ideal S128 .f32) (r : Fin 1000000) (j : Fin 128) :
    val_main_v16 (F := Ideal) x0 x3 x4 x5 x6 (ix2 r j) = gateRaw x0 x3 x4 x5 x6 r j := by
  rw [val_main_v16_apply, val_main_v4_apply, val_main_v1_apply, val_main_v3_apply, val_main_v2_apply,
    val_main_v15_apply, val_main_v14_apply, val_main_cst_0_apply, val_main_v13_apply, val_main_v12_apply,
    val_main_cst_apply, val_main_v11_apply, val_main_v10_apply, val_main_v9_apply, val_main_v6_apply,
    val_main_v8_apply, val_main_v7_apply]
  simp only [val_main_v0_apply, val_main_v5_apply, lidx1, ridx1, bidx1, lidx6, ridx6, bidx6]
  show (_ + _) * Ideal.div (Ideal.ofBits .f32 0x3F800000#32) (Ideal.ofBits .f32 0x3F800000#32 + Ideal.exp (-(_ + _))) = _
  rw [Ideal.ofBits_one_f32]
  rfl

/-! ## The readout -/

theorem lidx31 (n : Fin 50000) (o : Fin 128) (k : Fin 320) : lidx_main_v31 (ix2 n o) k = ix2 n k :=
  funext fun a => Fin.ext (by match a with | ⟨0, _⟩ => rfl | ⟨1, _⟩ => rfl)
theorem ridx31 (n : Fin 50000) (o : Fin 128) (k : Fin 320) : idx_main_v30 (ridx_main_v31 (ix2 n o) k) = ix2 o k :=
  funext fun a => Fin.ext (by match a with | ⟨0, _⟩ => rfl | ⟨1, _⟩ => rfl)
theorem bidx33 (n : Fin 50000) (o : Fin 128) : idx_main_v32 (idx_main_v33 (ix2 n o)) = ix1 o :=
  funext fun a => Fin.ext (by match a with | ⟨0, _⟩ => rfl)
theorem cidx27 (n : Fin 50000) (k : Fin 128) : idx_main_v26 (idx_main_v27 (ix2 n k)) = ix1 n :=
  funext fun a => Fin.ext (by match a with | ⟨0, _⟩ => rfl)

variable (x0 : FVec Ideal S1000000x128 .f32) (x1 : IVec S1000000 32) (x2 : FVec Ideal S50000x64 .f32)
  (x3 : FVec Ideal S128x128 .f32) (x4 : FVec Ideal S128 .f32) (x5 : FVec Ideal S128x128 .f32) (x6 : FVec Ideal S128 .f32)
  (x7 : FVec Ideal S128x320 .f32) (x8 : FVec Ideal S128 .f32)

/-- The first 128 columns of the concatenation are the segment sums. -/
theorem cat_lo (n : Fin 50000) (k : Fin 128) :
    val_main_v29 (F := Ideal) x0 x1 x2 x3 x4 x5 x6 (ix2 n (lo k)) = val_main_v19 (F := Ideal) x0 x1 x3 x4 x5 x6 (ix2 n k) := by
  unfold val_main_v29
  refine concatenate_apply_piece (1 : Fin 2) _ _ (ix2 n (lo k)) 0 ?hk S50000x128 _ ?hx rfl 0 ?hp (ix2 n k) (fun b hb => ?_) ?_
  case hk => show _ < 3; omega
  case hx => rfl
  case hp => rfl
  · match b with
    | ⟨0, _⟩ => rfl
    | ⟨1, _⟩ => exact absurd rfl hb
  · exact Nat.zero_add _

/-- The next 128 columns are the segment means. -/
theorem cat_mid (n : Fin 50000) (k : Fin 128) :
    val_main_v29 (F := Ideal) x0 x1 x2 x3 x4 x5 x6 (ix2 n (mid k)) = val_main_v28 (F := Ideal) x0 x1 x3 x4 x5 x6 (ix2 n k) := by
  unfold val_main_v29
  refine concatenate_apply_piece (1 : Fin 2) _ _ (ix2 n (mid k)) 1 ?hk S50000x128 _ ?hx rfl 128 ?hp (ix2 n k) (fun b hb => ?_) ?_
  case hk => show _ < 3; omega
  case hx => rfl
  case hp => rfl
  · match b with
    | ⟨0, _⟩ => rfl
    | ⟨1, _⟩ => exact absurd rfl hb
  · rfl

/-- The last 64 columns are the graph features. -/
theorem cat_hi (n : Fin 50000) (k : Fin 64) :
    val_main_v29 (F := Ideal) x0 x1 x2 x3 x4 x5 x6 (ix2 n (hi k)) = x2 (ix2 n k) := by
  unfold val_main_v29
  refine concatenate_apply_piece (1 : Fin 2) _ _ (ix2 n (hi k)) 2 ?hk S50000x64 _ ?hx rfl 256 ?hp (ix2 n k) (fun b hb => ?_) ?_
  case hk => show _ < 3; omega
  case hx => rfl
  case hp => rfl
  · match b with
    | ⟨0, _⟩ => rfl
    | ⟨1, _⟩ => exact absurd rfl hb
  · rfl

/-- The segment means at `(n, k)`: the sum divided by the count clamped below by one. -/
theorem mean_apply (n : Fin 50000) (k : Fin 128) :
    val_main_v28 (F := Ideal) x0 x1 x3 x4 x5 x6 (ix2 n k)
      = Ideal.div (val_main_v19 (F := Ideal) x0 x1 x3 x4 x5 x6 (ix2 n k)) (max (val_main_v23 (F := Ideal) x1 (ix1 n)) 1) := by
  rw [val_main_v28_apply, val_main_v27_apply, val_main_v26_apply, val_main_v25_apply, val_main_v24_apply,
    val_main_cst_4_apply, cidx27]
  show Ideal.div _ (max _ (Ideal.ofBits .f32 0x3F800000#32)) = _
  rw [Ideal.ofBits_one_f32]

/-- The reference's result at `(n, o)` is the readout of its segment sums and counts. -/
theorem readout_apply (n : Fin 50000) (o : Fin 128) :
    val_main_v35 (F := Ideal) x0 x1 x2 x3 x4 x5 x6 x7 x8 (ix2 n o)
      = readoutRaw (val_main_v19 (F := Ideal) x0 x1 x3 x4 x5 x6) (val_main_v23 (F := Ideal) x1) x2 x7 x8 n o := by
  rw [val_main_v35_apply, val_main_call0_v0_apply, val_main_call0_cst_apply, val_main_v34_apply, val_main_v31_apply,
    val_main_v33_apply, val_main_v32_apply, bidx33]
  simp only [val_main_v30_apply, lidx31, ridx31]
  rw [sum_three]
  simp only [cat_lo, cat_mid, cat_hi, mean_apply]
  show max _ (Ideal.ofBits .f32 0x00000000#32) = _
  rw [Ideal.ofBits_zero_f32]
  rfl

end Cert.ReferenceIdeal.RefRead

end
-- ==== Proof.Bridge.lean ====
/-
  The two programs compute one function of the arguments.

  The projected rows agree entry by entry: a transposed weight read at `(k, j)` is the weight at `(j, k)`, a bias laid
  out as a row is the bias. So the two scatter-adds of those rows into zeros, by the same index vector, are the same
  array, and so are the two node counts. Given equal segment sums and counts the results agree entry by entry: a
  transposed column range of the readout weight read at `(k, o)` is the weight at `(o, offset + k)`, the counts laid
  out as a column are the counts, and the reference's one sum over 320 columns is the kernel's three sums.
-/
import proofs.«109738_j30365418783528_2_alg».proof.Proof.HostRead
import proofs.«109738_j30365418783528_2_alg».proof.Proof.RefRead
import Idealize.ShloMosaic.Lib.ValueLayout

noncomputable section
open scoped BigOperators
open Idealize.ShloMosaic Idealize.ShloMosaic.ValueIdx

namespace Cert.Bridge

open Cert.Readout Cert.KernelIdeal Cert.KernelIdeal.Gen Cert.KernelIdeal.HostRead

variable (x0 : FVec Ideal S1000000x128 .f32) (x1 : IVec S1000000 32) (x2 : FVec Ideal S50000x64 .f32)
  (x3 : FVec Ideal S128x128 .f32) (x4 : FVec Ideal S128 .f32) (x5 : FVec Ideal S128x128 .f32) (x6 : FVec Ideal S128 .f32)
  (x7 : FVec Ideal S128x320 .f32) (x8 : FVec Ideal S128 .f32)

/-- The projected rows are the reference's. -/
theorem gated_eq : gated x0 x3 x4 x5 x6 = Cert.ReferenceIdeal.Read.val_main_v16 (F := Ideal) x0 x3 x4 x5 x6 := by
  funext i
  obtain ⟨r, j, rfl⟩ : ∃ (r : Fin 1000000) (j : Fin 128), i = ix2 r j := ⟨i 0, i 1, eq_ix2 i⟩
  rw [Cert.ReferenceIdeal.RefRead.gate_apply]
  show gate x0 _ _ _ _ r j = _
  unfold gate gateRaw
  have t3 : ∀ k : Fin 128, transpose S128x128 [1, 0] x3 transposes_S128x128_S128x128_1_0 (ix2 k j) = x3 (ix2 j k) :=
    fun k => transpose_ix2_apply x3 _ k j
  have t5 : ∀ k : Fin 128, transpose S128x128 [1, 0] x5 transposes_S128x128_S128x128_1_0 (ix2 k j) = x5 (ix2 j k) :=
    fun k => transpose_ix2_apply x5 _ k j
  have s4 : shapeCast S1x128 x4 shapeCasts_S128_S1x128 (ix2 (0 : Fin 1) j) = x4 (ix1 j) := shapeCast_a_1a_apply x4 _ 0 j
  have s6 : shapeCast S1x128 x6 shapeCasts_S128_S1x128 (ix2 (0 : Fin 1) j) = x6 (ix1 j) := shapeCast_a_1a_apply x6 _ 0 j
  simp only [t3, t5, s4, s6]

/-- The segment sums are the reference's. -/
theorem sums_eq : sums x1 (gated x0 x3 x4 x5 x6) = Cert.ReferenceIdeal.Read.val_main_v19 (F := Ideal) x0 x1 x3 x4 x5 x6 := by
  rw [gated_eq]
  rfl

/-- The node counts are the reference's. -/
theorem counts_eq : counts x1 = Cert.ReferenceIdeal.Read.val_main_v23 (F := Ideal) x1 := rfl

/-- A vector laid out as a column reads, at `(n, 0)`, the vector at `n`. -/
theorem column_apply (v : FVec Ideal S50000 .f32) (n : Fin 50000) :
    shapeCast S50000x1 v shapeCasts_S50000_S50000x1 (ix2 n (0 : Fin 1)) = v (ix1 n) :=
  shapeCast_apply v _ _ _ (by
    rw [Shape.rowMajor_val_two, Shape.rowMajor_val_one]
    show n.val = n.val * 1 + 0
    omega)

/-- The three transposed column ranges of the readout weight. -/
theorem wa_apply (k o : Fin 128) :
    transpose S128x128 [1, 0] (extractStridedSlice S128x128 ![0, 0] x7 slices_S128x320_S128x128_0_0) transposes_S128x128_S128x128_1_0 (ix2 k o)
      = x7 (ix2 o (lo k)) :=
  (transpose_ix2_apply (extractStridedSlice S128x128 ![0, 0] x7 slices_S128x320_S128x128_0_0) transposes_S128x128_S128x128_1_0 k o).trans
    (slice2_axis1_apply 0 x7 slices_S128x320_S128x128_0_0 o k (lo k) (by show k.val = 0 + k.val; omega))
theorem wb_apply (k o : Fin 128) :
    transpose S128x128 [1, 0] (extractStridedSlice S128x128 ![0, 128] x7 slices_S128x320_S128x128_0_128) transposes_S128x128_S128x128_1_0 (ix2 k o)
      = x7 (ix2 o (mid k)) :=
  (transpose_ix2_apply (extractStridedSlice S128x128 ![0, 128] x7 slices_S128x320_S128x128_0_128) transposes_S128x128_S128x128_1_0 k o).trans
    (slice2_axis1_apply 128 x7 slices_S128x320_S128x128_0_128 o k (mid k) rfl)
theorem wc_apply (k : Fin 64) (o : Fin 128) :
    transpose S64x128 [1, 0] (extractStridedSlice S128x64 ![0, 256] x7 slices_S128x320_S128x64_0_256) transposes_S128x64_S64x128_1_0 (ix2 k o)
      = x7 (ix2 o (hi k)) :=
  (transpose_ix2_apply (extractStridedSlice S128x64 ![0, 256] x7 slices_S128x320_S128x64_0_256) transposes_S128x64_S64x128_1_0 k o).trans
    (slice2_axis1_apply 256 x7 slices_S128x320_S128x64_0_256 o k (hi k) rfl)

/-- The kernel program's result function is the reference's. -/
theorem result_eq : result x0 x1 x2 x3 x4 x5 x6 x7 x8
    = Cert.ReferenceIdeal.Read.val_main_v35 (F := Ideal) x0 x1 x2 x3 x4 x5 x6 x7 x8 := by
  funext i
  obtain ⟨n, o, rfl⟩ : ∃ (n : Fin 50000) (o : Fin 128), i = ix2 n o := ⟨i 0, i 1, eq_ix2 i⟩
  rw [Cert.ReferenceIdeal.RefRead.readout_apply]
  unfold result
  rw [sums_eq, counts_eq]
  show readout _ _ _ _ _ _ _ n o = _
  unfold readout readoutRaw
  have ha : ∀ k : Fin 128, transpose S128x128 [1, 0] (extractStridedSlice S128x128 ![0, 0] x7 slices_S128x320_S128x128_0_0) transposes_S128x128_S128x128_1_0 (ix2 k o) = x7 (ix2 o (lo k)) :=
    fun k => wa_apply x7 k o
  have hb : ∀ k : Fin 128, transpose S128x128 [1, 0] (extractStridedSlice S128x128 ![0, 128] x7 slices_S128x320_S128x128_0_128) transposes_S128x128_S128x128_1_0 (ix2 k o) = x7 (ix2 o (mid k)) :=
    fun k => wb_apply x7 k o
  have hc : ∀ k : Fin 64, transpose S64x128 [1, 0] (extractStridedSlice S128x64 ![0, 256] x7 slices_S128x320_S128x64_0_256) transposes_S128x64_S64x128_1_0 (ix2 k o) = x7 (ix2 o (hi k)) :=
    fun k => wc_apply x7 k o
  simp only [ha, hb, hc, column_apply, shapeCast_a_1a_apply]

end Cert.Bridge

end
-- ==== Proof.lean ====
/-
  A graph readout: every node row is projected through a gated pair of linear maps, the projected rows are added up
  per graph and counted, and each graph's sum, its mean (the sum over the count clamped below by one) and its own
  features go through one more linear map and a clamp at zero. The kernel program computes the projection and the
  last map in two pipelined regions, the second with the 320-column weight cut into three column ranges; the
  reference computes the last map as one product with the concatenation `[sum, mean, features]`.

  On the extended reals the two results are one function of the arguments: the products into zero accumulators are
  plain sums, rounding an operand to a narrower format is the identity, `1 / (1 + e^(−y))` is the logistic function,
  the projected rows agree entry by entry so the two scatter-adds are the same array, and a sum over 320 columns is
  the sum of the sums over its three ranges (addition is commutative and associative there, so no input needs to be
  finite for this). The frames of the two kernel programs are the generated ones; the reference's frame is its run
  with the result dropped; nothing was rewritten on the way to the idealized kernel, so `preserves` is trivial.
-/
import proofs.«109738_j30365418783528_2_alg».proof.Defs
import proofs.«109738_j30365418783528_2_alg».proof.Proof.Gen.Kernel
import proofs.«109738_j30365418783528_2_alg».proof.Proof.Gen.Kernel.Skeleton
import proofs.«109738_j30365418783528_2_alg».proof.Proof.Gen.Kernel.Launch
import proofs.«109738_j30365418783528_2_alg».proof.Proof.Gen.Kernel.Points
import proofs.«109738_j30365418783528_2_alg».proof.Proof.Gen.Kernel.Frame
import proofs.«109738_j30365418783528_2_alg».proof.Proof.Gen.KernelIdeal
import proofs.«109738_j30365418783528_2_alg».proof.Proof.Gen.KernelIdeal.Skeleton
import proofs.«109738_j30365418783528_2_alg».proof.Proof.Gen.KernelIdeal.Launch
import proofs.«109738_j30365418783528_2_alg».proof.Proof.Gen.KernelIdeal.Points
import proofs.«109738_j30365418783528_2_alg».proof.Proof.Gen.KernelIdeal.Frame
import proofs.«109738_j30365418783528_2_alg».proof.Proof.Gen.ReferenceIdeal
import proofs.«109738_j30365418783528_2_alg».proof.Proof.Gen.ReferenceIdeal.Read
import proofs.«109738_j30365418783528_2_alg».proof.Proof.Gen.Pre_finite_inputs
import proofs.«109738_j30365418783528_2_alg».proof.Proof.KernelRun
import proofs.«109738_j30365418783528_2_alg».proof.Proof.HostRead
import proofs.«109738_j30365418783528_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no operation was rewritten. -/
theorem preserves : Cert.preserves_Kernel_KernelIdeal := trivial

section
open Cert.KernelIdeal

/-- The kernel program's run on the extended reals: the result buffer ends at the result function of the arguments,
    the arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v20)
        = HostRead.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (HostRead.W4_v20 m ρ c), (h c).2⟩) (Run.run_value (F := Ideal) m ρ)

end

/-- From memories that agree on the arguments both programs run, and both result buffers end at the kernel
    program's result function of the arguments: the reference's composed term is that function (`Bridge.result_eq`). -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v35_eq, e0, e1, e2, e3, e4, e5, e6, e7, e8]
  exact (Cert.Bridge.result_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
